-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x384x384x3 : Shape := ⟨4, ![256, 384, 384, 3]⟩
abbrev S_ : Shape := ⟨0, ![]⟩

class Facts : Prop where
  bcast_S_S256x384x384x3 : S_.BroadcastsInDim S256x384x384x3 (![] : Fin 0 → Fin S256x384x384x3.rank)
  reducesTo_S256x384x384x3_S_d0_1_2_3 : S256x384x384x3.ReducesTo [0, 1, 2, 3] S_
  h_S_ : 0 < S_.numel

variable [Facts]

def fn {F : FTy → Type} [FloatOps F] (main_arg0 : FVec F S256x384x384x3 .f32) : IVec S_ 1 :=
  let main_v0 : FVec F S256x384x384x3 .f32 := Host.absf main_arg0
  let main_cst : FVec F S_ .f32 := constant S_ .f32 0x7F800000#32
  let main_v1 : FVec F S256x384x384x3 .f32 := broadcastInDim S256x384x384x3 ![] bcast_S_S256x384x384x3 main_cst
  let main_v2 : IVec S256x384x384x3 1 := cmpf .olt main_v0 main_v1
  let main_c : IVec S_ 1 := constantI S_ 1 1#1
  let main_v3 : IVec S_ 1 := (fun x v => Host.reduce IntOp.andi x v reducesTo_S256x384x384x3_S_d0_1_2_3 h_S_) main_v2 main_c
  main_v3
-- ==== Kernel.lean ====
abbrev S256x384x384x3 : Shape := ⟨4, ![256, 384, 384, 3]⟩
abbrev S256x384x1152 : Shape := ⟨3, ![256, 384, 1152]⟩
abbrev S256x576x768 : Shape := ⟨3, ![256, 576, 768]⟩
abbrev S4x384x1152 : Shape := ⟨3, ![4, 384, 1152]⟩
abbrev S4x576x768 : Shape := ⟨3, ![4, 576, 768]⟩
abbrev S96x16x24x48 : Shape := ⟨4, ![96, 16, 24, 48]⟩
abbrev S96x24x16x48 : Shape := ⟨4, ![96, 24, 16, 48]⟩
abbrev S4x24x24x768 : Shape := ⟨4, ![4, 24, 24, 768]⟩

abbrev nBuf : Space → Nat
  | .hbm => 3
  | .vmem => 4
  | .smem => 0
  | _ => 0

abbrev bufTy : (tb : Table) → Fin (tcTables nBuf tb) → BufTy
  | .hbm, ⟨0, _⟩ => ⟨S256x384x384x3, .f32⟩
  | .hbm, ⟨1, _⟩ => ⟨S256x384x1152, .f32⟩
  | .hbm, ⟨2, _⟩ => ⟨S256x576x768, .f32⟩
  | .local _ .vmem, ⟨0, _⟩ => ⟨S4x384x1152, .f32⟩
  | .local _ .vmem, ⟨1, _⟩ => ⟨S4x384x1152, .f32⟩
  | .local _ .vmem, ⟨2, _⟩ => ⟨S4x576x768, .f32⟩
  | .local _ .vmem, ⟨3, _⟩ => ⟨S4x576x768, .f32⟩
  | _, _ => ⟨S256x384x384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x384x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x576x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x384x384x3_S256x384x1152 : S256x384x384x3.ShapeCasts S256x384x1152
  inb_S4x384x1152_S4x384x1152_0_0_0 : ∀ a, (![0, 0, 0] : Fin 3 → Nat) a + S4x384x1152.size a ≤ S4x384x1152.size a
  h_S4x384x1152 : 0 < S4x384x1152.numel
  shapeCasts_S4x384x1152_S4x384x1152 : S4x384x1152.ShapeCasts S4x384x1152
  shapeCasts_S4x384x1152_S96x16x24x48 : S4x384x1152.ShapeCasts S96x16x24x48
  transposes_S96x16x24x48_p0_2_1_3_S96x24x16x48 : S96x16x24x48.Transposes [0, 2, 1, 3] S96x24x16x48
  shapeCasts_S96x24x16x48_S4x24x24x768 : S96x24x16x48.ShapeCasts S4x24x24x768
  shapeCasts_S4x24x24x768_S4x576x768 : S4x24x24x768.ShapeCasts S4x576x768
  inb_S4x576x768_S4x576x768_0_0_0 : ∀ a, (![0, 0, 0] : Fin 3 → Nat) a + S4x576x768.size a ≤ S4x576x768.size a
  h_S4x576x768 : 0 < S4x576x768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x384x1152.size a ≤ S256x384x1152.size a
  hwx0_0 : ∀ i : grid0.Coords, EltTy.bits .f32 = 32 ∨ (Rect.block (s := S256x384x1152) S4x384x1152.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x576x768.size a ≤ S256x576x768.size a
  hwx0_1 : ∀ i : grid0.Coords, EltTy.bits .f32 = 32 ∨ (Rect.block (s := S256x576x768) S4x576x768.size (cc0_transform_1 i) (hinb0_1 i)).WholeWords (EltTy.packing .f32)

variable [Facts₀]

abbrev win0_0 : Pipeline.Window sig grid0 :=
  Pipeline.Window.ofSpec (Memref.whole main_v0) S4x384x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x576x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x384x384x3 : Shape := ⟨4, ![256, 384, 384, 3]⟩
abbrev S256x24x16x24x16x3 : Shape := ⟨6, ![256, 24, 16, 24, 16, 3]⟩
abbrev S256x24x24x16x16x3 : Shape := ⟨6, ![256, 24, 24, 16, 16, 3]⟩
abbrev S256x576x768 : Shape := ⟨3, ![256, 576, 768]⟩

abbrev nBuf : Space → Nat
  | .hbm => 4
  | .vmem => 0
  | .smem => 0
  | _ => 0

abbrev bufTy : (tb : Table) → Fin (tcTables nBuf tb) → BufTy
  | .hbm, ⟨0, _⟩ => ⟨S256x384x384x3, .f32⟩
  | .hbm, ⟨1, _⟩ => ⟨S256x24x16x24x16x3, .f32⟩
  | .hbm, ⟨2, _⟩ => ⟨S256x24x24x16x16x3, .f32⟩
  | .hbm, ⟨3, _⟩ => ⟨S256x576x768, .f32⟩
  | _, _ => ⟨S256x384x384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S256x384x384x3_S256x24x16x24x16x3 : S256x384x384x3.ShapeCasts S256x24x16x24x16x3
  transposes_S256x24x16x24x16x3_S256x24x24x16x16x3_0_1_3_2_4_5 : S256x24x16x24x16x3.Transposes [0, 1, 3, 2, 4, 5] S256x24x24x16x16x3
  shapeCasts_S256x24x24x16x16x3_S256x576x768 : S256x24x24x16x16x3.ShapeCasts S256x576x768

variable [Facts₀]

class Facts : Prop extends Facts₀ where

variable [Facts]
-- ==== Proof.PatchIndex.lean ====
/-
  Cutting an image batch into patches, as an index map.

  An image batch `x : [256, 384, 384, 3]` (batch, row, column, channel) is cut into 24 × 24 patches of 16 × 16 pixels.
  Entry `(b, p, q)` of the result `[256, 576, 768]` is the pixel of image `b` in patch row `p / 24`, patch column
  `p % 24`, at row `q / 48` and column `q % 48 / 3` inside the patch, channel `q % 3`:

      result (b, p, q) = x (b, (p / 24) * 16 + q / 48, (p % 24) * 16 + q % 48 / 3, q % 3).

  Nothing is computed: both programs only move entries, so the whole comparison is arithmetic on row-major positions.
  This file states that index map (`src`) and reads at an index, over any element type,
  * the split / swap / merge chain  [256,384,384,3] → [256,24,16,24,16,3] → (swap axes 2, 3) → [256,576,768]  (`split_swap_merge`),
  * the same chain on one block of four images with the column and channel axes already merged,
    [4,384,1152] → [96,16,24,48] → (swap axes 1, 2) → [4,24,24,768] → [4,576,768]  (`block_chain_apply`, `srcBlk`),
  * the merge of the column and channel axes [256,384,384,3] → [256,384,1152] met through such a block (`merged_at_patch`).
-/
import Idealize.ShloMosaic.Lib.Pipeline.Value
import Idealize.ShloMosaic.Lib.ValueIdx
import Idealize.ShloMosaic.Lib.ValueIdxRank6

namespace Cert.Patchify

open Idealize.ShloMosaic Idealize.ShloMosaic.ValueIdx

/-- The image batch: batch, row, column, channel. -/
abbrev Img : Shape := ⟨4, ![256, 384, 384, 3]⟩
/-- Rows split into (patch row, row in patch), columns into (patch column, column in patch). -/
abbrev Split : Shape := ⟨6, ![256, 24, 16, 24, 16, 3]⟩
/-- The same with the row in the patch and the patch column exchanged. -/
abbrev Swapped : Shape := ⟨6, ![256, 24, 24, 16, 16, 3]⟩
/-- The patches: batch, patch number, position in the flattened patch. -/
abbrev Out : Shape := ⟨3, ![256, 576, 768]⟩
/-- The image batch with column and channel merged into one axis of 1152. -/
abbrev Flat : Shape := ⟨3, ![256, 384, 1152]⟩
/-- Four images of `Flat`. -/
abbrev Blk : Shape := ⟨3, ![4, 384, 1152]⟩
/-- Those four images as 96 bands of 16 rows, each row 24 runs of 48. -/
abbrev Bands : Shape := ⟨4, ![96, 16, 24, 48]⟩
/-- The bands with row and run exchanged. -/
abbrev BandsT : Shape := ⟨4, ![96, 24, 16, 48]⟩
/-- Four images, patch row, patch column, flattened patch. -/
abbrev Grid4 : Shape := ⟨4, ![4, 24, 24, 768]⟩
/-- Four images of `Out`. -/
abbrev OBlk : Shape := ⟨3, ![4, 576, 768]⟩

/-- Where entry `j = (b, p, q)` of the patches comes from in the image batch. -/
def src (j : Out.Idx) : Img.Idx :=
  have h0 : (j 0).val < 256 := (j 0).isLt
  have h1 : (j 1).val < 576 := (j 1).isLt
  have h2 : (j 2).val < 768 := (j 2).isLt
  ix4 (⟨(j 0).val, h0⟩ : Fin 256) (⟨(j 1).val / 24 * 16 + (j 2).val / 48, by omega⟩ : Fin 384)
    (⟨(j 1).val % 24 * 16 + (j 2).val % 48 / 3, by omega⟩ : Fin 384) (⟨(j 2).val % 3, by omega⟩ : Fin 3)

/-- The patches of an image batch: the batch read at `src`. -/
def patches {α : Type} (x : Img.Idx → α) : Out.Idx → α := fun j => x (src j)

/-- Splitting rows and columns, exchanging the two middle axes and flattening reads the image batch at `src`:
    the two reshapes keep row-major positions, and position `(b·576 + p)·768 + q` of the result is
    `((((b·24 + p/24)·24 + p%24)·16 + q/48)·16 + q%48/3)·3 + q%3` in the exchanged array. -/
theorem split_swap_merge {α : Type} (x : Img.Idx → α) (h1 : Img.ShapeCasts Split)
    (h2 : Split.Transposes [0, 1, 3, 2, 4, 5] Swapped) (h3 : Swapped.ShapeCasts Out) :
    shapeCast Out (transpose Swapped [0, 1, 3, 2, 4, 5] (shapeCast Split x h1) h2) h3 = patches x := by
  funext j
  show _ = x (src j)
  have b0 : (j 0).val < 256 := (j 0).isLt
  have b1 : (j 1).val < 576 := (j 1).isLt
  have b2 : (j 2).val < 768 := (j 2).isLt
  refine (shapeCast_apply _ h3 j
    (ix6 (⟨(j 0).val, b0⟩ : Fin 256) (⟨(j 1).val / 24, by omega⟩ : Fin 24) (⟨(j 1).val % 24, by omega⟩ : Fin 24)
      (⟨(j 2).val / 48, by omega⟩ : Fin 16) (⟨(j 2).val % 48 / 3, by omega⟩ : Fin 16) (⟨(j 2).val % 3, by omega⟩ : Fin 3)) ?_).trans ?_
  · rw [Shape.rowMajor_val_six, Shape.rowMajor_val_three]
    show (((((j 0).val * 24 + (j 1).val / 24) * 24 + (j 1).val % 24) * 16 + (j 2).val / 48) * 16 + (j 2).val % 48 / 3) * 3
        + (j 2).val % 3 = ((j 0).val * 576 + (j 1).val) * 768 + (j 2).val
    omega
  refine (transpose_apply _ _ h2 _
    (ix6 (⟨(j 0).val, b0⟩ : Fin 256) (⟨(j 1).val / 24, by omega⟩ : Fin 24) (⟨(j 2).val / 48, by omega⟩ : Fin 16)
      (⟨(j 1).val % 24, by omega⟩ : Fin 24) (⟨(j 2).val % 48 / 3, by omega⟩ : Fin 16) (⟨(j 2).val % 3, by omega⟩ : Fin 3))
    (fun a => match a with
      | ⟨0, _⟩ => rfl | ⟨1, _⟩ => rfl | ⟨2, _⟩ => rfl | ⟨3, _⟩ => rfl | ⟨4, _⟩ => rfl | ⟨5, _⟩ => rfl)).trans ?_
  refine shapeCast_apply x h1 _ (src j) ?_
  rw [Shape.rowMajor_val_four, Shape.rowMajor_val_six]
  show (((j 0).val * 384 + ((j 1).val / 24 * 16 + (j 2).val / 48)) * 384 + ((j 1).val % 24 * 16 + (j 2).val % 48 / 3)) * 3
      + (j 2).val % 3
    = (((((j 0).val * 24 + (j 1).val / 24) * 16 + (j 2).val / 48) * 24 + (j 1).val % 24) * 16 + (j 2).val % 48 / 3) * 3
      + (j 2).val % 3
  omega

/-- Where entry `y = (b, p, q)` of a block of four images' patches comes from in the block of four merged images:
    row `(p / 24) * 16 + q / 48`, merged column `(p % 24) * 48 + q % 48`. -/
def srcBlk (y : OBlk.Idx) : Blk.Idx :=
  have h0 : (y 0).val < 4 := (y 0).isLt
  have h1 : (y 1).val < 576 := (y 1).isLt
  have h2 : (y 2).val < 768 := (y 2).isLt
  ix3 (⟨(y 0).val, h0⟩ : Fin 4) (⟨(y 1).val / 24 * 16 + (y 2).val / 48, by omega⟩ : Fin 384)
    (⟨(y 1).val % 24 * 48 + (y 2).val % 48, by omega⟩ : Fin 1152)

/-- The block's chain — 96 bands of 16 rows of 24 runs of 48, rows and runs exchanged, then flattened twice — reads the
    block of merged images at `srcBlk`. -/
theorem block_chain_apply {α : Type} (v : Blk.Idx → α) (g0 : Blk.ShapeCasts Blk) (g1 : Blk.ShapeCasts Bands)
    (g2 : Bands.Transposes [0, 2, 1, 3] BandsT) (g3 : BandsT.ShapeCasts Grid4) (g4 : Grid4.ShapeCasts OBlk) (y : OBlk.Idx) :
    shapeCast OBlk (shapeCast Grid4 (transpose BandsT [0, 2, 1, 3] (shapeCast Bands (shapeCast Blk v g0) g1) g2) g3) g4 y
      = v (srcBlk y) := by
  have b0 : (y 0).val < 4 := (y 0).isLt
  have b1 : (y 1).val < 576 := (y 1).isLt
  have b2 : (y 2).val < 768 := (y 2).isLt
  rw [shapeCast_self]
  refine (shapeCast_apply _ g4 y
    (ix4 (⟨(y 0).val, b0⟩ : Fin 4) (⟨(y 1).val / 24, by omega⟩ : Fin 24) (⟨(y 1).val % 24, by omega⟩ : Fin 24)
      (⟨(y 2).val, b2⟩ : Fin 768)) ?_).trans ?_
  · rw [Shape.rowMajor_val_four, Shape.rowMajor_val_three]
    show (((y 0).val * 24 + (y 1).val / 24) * 24 + (y 1).val % 24) * 768 + (y 2).val = ((y 0).val * 576 + (y 1).val) * 768 + (y 2).val
    omega
  refine (shapeCast_apply _ g3 _
    (ix4 (⟨(y 0).val * 24 + (y 1).val / 24, by omega⟩ : Fin 96) (⟨(y 1).val % 24, by omega⟩ : Fin 24)
      (⟨(y 2).val / 48, by omega⟩ : Fin 16) (⟨(y 2).val % 48, by omega⟩ : Fin 48)) ?_).trans ?_
  · rw [Shape.rowMajor_val_four, Shape.rowMajor_val_four]
    show ((((y 0).val * 24 + (y 1).val / 24) * 24 + (y 1).val % 24) * 16 + (y 2).val / 48) * 48 + (y 2).val % 48
      = (((y 0).val * 24 + (y 1).val / 24) * 24 + (y 1).val % 24) * 768 + (y 2).val
    omega
  refine (transpose_apply _ _ g2 _
    (ix4 (⟨(y 0).val * 24 + (y 1).val / 24, by omega⟩ : Fin 96) (⟨(y 2).val / 48, by omega⟩ : Fin 16)
      (⟨(y 1).val % 24, by omega⟩ : Fin 24) (⟨(y 2).val % 48, by omega⟩ : Fin 48))
    (fun a => match a with | ⟨0, _⟩ => rfl | ⟨1, _⟩ => rfl | ⟨2, _⟩ => rfl | ⟨3, _⟩ => rfl)).trans ?_
  refine shapeCast_apply v g1 _ (srcBlk y) ?_
  rw [Shape.rowMajor_val_three, Shape.rowMajor_val_four]
  show ((y 0).val * 384 + ((y 1).val / 24 * 16 + (y 2).val / 48)) * 1152 + ((y 1).val % 24 * 48 + (y 2).val % 48)
    = ((((y 0).val * 24 + (y 1).val / 24) * 16 + (y 2).val / 48) * 24 + (y 1).val % 24) * 48 + (y 2).val % 48
  omega

/-- The image batch with column and channel merged, read where block `n` of four images meets `srcBlk y`, is the image
    batch at `src` of the patch entry that block `n` of four images' patches has at `y`: the merged column
    `(p % 24) * 48 + q % 48` is column `(p % 24) * 16 + q % 48 / 3`, channel `q % 3`. -/
theorem merged_at_patch {α : Type} (x : Img.Idx → α) (h : Img.ShapeCasts Flat) (n : Nat) (y : OBlk.Idx) (k : Flat.Idx) (i : Out.Idx)
    (hk0 : (k 0).val = n * 4 + (y 0).val) (hk1 : (k 1).val = (y 1).val / 24 * 16 + (y 2).val / 48)
    (hk2 : (k 2).val = (y 1).val % 24 * 48 + (y 2).val % 48)
    (hi0 : (i 0).val = n * 4 + (y 0).val) (hi1 : (i 1).val = (y 1).val) (hi2 : (i 2).val = (y 2).val) :
    shapeCast Flat x h k = patches x i := by
  show _ = x (src i)
  have b1 : (y 1).val < 576 := (y 1).isLt
  have b2 : (y 2).val < 768 := (y 2).isLt
  refine shapeCast_apply x h k (src i) ?_
  rw [Shape.rowMajor_val_four, Shape.rowMajor_val_three]
  show (((i 0).val * 384 + ((i 1).val / 24 * 16 + (i 2).val / 48)) * 384 + ((i 1).val % 24 * 16 + (i 2).val % 48 / 3)) * 3
      + (i 2).val % 3 = ((k 0).val * 384 + (k 1).val) * 1152 + (k 2).val
  rw [hk0, hk1, hk2, hi0, hi1, hi2]
  omega

end Cert.Patchify
-- ==== Proof.KernelPatches.lean ====
/-
  What the kernel's result array holds after the run: the patches of its argument.

  The host first merges the column and channel axes of the image batch (a reshape: row-major positions kept). The
  pipelined call then visits 64 grid points; point `t` fetches images `4t … 4t+3` of the merged array, re-lays them
  (bands of 16 rows, rows and runs of 48 exchanged, flattened) and writes the result back as images `4t … 4t+3` of the
  result array. The re-laying reads the block at `srcBlk`; through the block's place in the merged array and the merge, that
  is the image batch at `src` of the result entry the point writes: every point writes its block of `patches` of the
  argument, and the 64 blocks tile the result array.
-/
import proofs.«137014_j37074157699251_2_alg».proof.Proof.Gen.KernelIdeal.Value
import proofs.«137014_j37074157699251_2_alg».proof.Proof.PatchIndex
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Patches

open Cert.KernelIdeal Cert.KernelIdeal.Gen Cert.Patchify

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- The body's stored value at an entry of the output block is the loaded block at `srcBlk`. -/
theorem payload_apply (v0 : Vec F S4x384x1152 .f32) (y : S4x576x768.Idx) : k0_pay1 v0 y = v0 (srcBlk y) := by
  unfold k0_pay1
  exact block_chain_apply v0 _ _ _ _ _ y

/-- The array the call's input window reads is the argument with column and channel merged. -/
theorem entry_merged (c : Dev nD) :
    (V m c main_v0 : S256x384x1152.Idx → Elt F .f32)
      = shapeCast S256x384x1152 (m ((c : Thread nD τ).loc main_arg0) : S256x384x384x3.Idx → Elt F .f32)
          shapeCasts_S256x384x384x3_S256x384x1152 := by
  dsimp only [Gen.V, Gen.hostOps0]; after_results; rfl

/-- Both windows move along the batch axis only, four images per grid point: block `t` on axis 0, block 0 on the others. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) = t.val :=
  (by decide +kernel : ∀ t : Fin grid0.N, _)

/-- What grid point `t` writes back is block `t` of the patches of the argument. -/
theorem flushed_eq (c : Dev nD) (t : Fin cfg0.N) :
    (dats m 0 c).flushed 1 t
      = ((cfg0.win 1).blk t).view.read (Elt F) (patches (m ((c : Thread nD τ).loc main_arg0) : S256x384x384x3.Idx → Elt F .f32)) := by
  rw [Cert.KernelIdeal.Value.flushed1]
  unfold out0_1
  rw [View.canon_unit_zero zero_offsets]
  simp only [View.ld_unit_zero (S := S4x384x1152) zero_offsets]
  obtain ⟨e0, e1, e2, e3, e4, e5⟩ := idx_facts t
  funext y
  show k0_pay1 (iblk m c 0 t) y
    = patches (m ((c : Thread nD τ).loc main_arg0) : S256x384x384x3.Idx → Elt F .f32) (((cfg0.win 1).blk t).view.emb y)
  refine (payload_apply (iblk m c 0 t) y).trans ?_
  show (V m c main_v0 : S256x384x1152.Idx → Elt F .f32) (((cfg0.win 0).blk t).view.emb (srcBlk y)) = _
  rw [entry_merged]
  refine merged_at_patch _ _ (win0_1.index t (0 : Fin 3)) y _ _ ?_ ?_ ?_ ?_ ?_ ?_
  · show win0_0.index t (0 : Fin 3) * 4 + 1 * (y 0).val = win0_1.index t (0 : Fin 3) * 4 + (y 0).val
    omega
  · show win0_0.index t (1 : Fin 3) * 384 + 1 * ((y 1).val / 24 * 16 + (y 2).val / 48) = (y 1).val / 24 * 16 + (y 2).val / 48
    omega
  · show win0_0.index t (2 : Fin 3) * 1152 + 1 * ((y 1).val % 24 * 48 + (y 2).val % 48) = (y 1).val % 24 * 48 + (y 2).val % 48
    omega
  · show win0_1.index t (0 : Fin 3) * 4 + 1 * (y 0).val = win0_1.index t (0 : Fin 3) * 4 + (y 0).val
    omega
  · show win0_1.index t (1 : Fin 3) * 576 + 1 * (y 1).val = (y 1).val
    omega
  · show win0_1.index t (2 : Fin 3) * 768 + 1 * (y 2).val = (y 2).val
    omega

/-- An entry of the result array is in point `t`'s block iff each coordinate is in the block's range on its axis. -/
theorem mem_blk (t : Fin cfg0.N) (i : S256x576x768.Idx) :
    i ∈ ((cfg0.win 1).blk t).view.set ↔ ∀ a : Fin 3, win0_1.index t a * S4x576x768.size a ≤ (i a).val
      ∧ (i a).val < win0_1.index t a * S4x576x768.size a + S4x576x768.size a := by
  show i ∈ ((View.whole main_v1).slice (win0_1.rect t)).set ↔ _
  rw [View.set_slice_whole, Rect.mem_set_unit]
  exact Iff.rfl

/-- Image `b` of the result lies in the block of point `b / 4`: the 64 blocks tile the array. -/
theorem cover (i : S256x576x768.Idx) :
    ∃ t : Fin cfg0.N, (cfg0.win 1).flush t = true ∧ i ∈ ((cfg0.win 1).blk t).view.set := by
  have h0 : (i 0).val < 256 := (i 0).isLt
  have h1 : (i 1).val < 576 := (i 1).isLt
  have h2 : (i 2).val < 768 := (i 2).isLt
  have hlt : (i 0).val / 4 < cfg0.N := by
    show (i 0).val / 4 < grid0.N
    rw [N_0]; omega
  obtain ⟨e0, e1, e2, e3, e4, e5⟩ := idx_facts ⟨(i 0).val / 4, hlt⟩
  have e5' : win0_1.index ⟨(i 0).val / 4, hlt⟩ (0 : Fin 3) = (i 0).val / 4 := e5
  refine ⟨⟨(i 0).val / 4, hlt⟩, flush0_1 _, ?_⟩
  rw [mem_blk]
  intro a
  match a with
  | ⟨0, _⟩ =>
    show win0_1.index ⟨(i 0).val / 4, hlt⟩ (0 : Fin 3) * 4 ≤ (i 0).val
      ∧ (i 0).val < win0_1.index ⟨(i 0).val / 4, hlt⟩ (0 : Fin 3) * 4 + 4
    omega
  | ⟨1, _⟩ =>
    show win0_1.index ⟨(i 0).val / 4, hlt⟩ (1 : Fin 3) * 576 ≤ (i 1).val
      ∧ (i 1).val < win0_1.index ⟨(i 0).val / 4, hlt⟩ (1 : Fin 3) * 576 + 576
    omega
  | ⟨2, _⟩ =>
    show win0_1.index ⟨(i 0).val / 4, hlt⟩ (2 : Fin 3) * 768 ≤ (i 2).val
      ∧ (i 2).val < win0_1.index ⟨(i 0).val / 4, hlt⟩ (2 : Fin 3) * 768 + 768
    omega

/-- After the run the result array is the patches of the argument. -/
theorem final (c : Dev nD) :
    (dats m 0 c).arrAt 1 cfg0.N = patches (m ((c : Thread nD τ).loc main_arg0) : S256x384x384x3.Idx → Elt F .f32) :=
  (dats m 0 c).arrAt_eq_of_cover 1 _ (fun t _ => flushed_eq m c t) cover

/-- Every weakly fair execution of the kernel's program ends with the result array at the patches of the argument and the
    argument unchanged. -/
theorem run : θ_run defs (onTc (τ := τ) (main (F := F))) ⟨m, fun _ => 0, ρ⟩ fun r => ∀ c : Dev nD,
      r.2.mem ((c : Thread nD τ).loc main_v1) = patches (m ((c : Thread nD τ).loc main_arg0) : S256x384x384x3.Idx → Elt F .f32)
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Patches

end
-- ==== Proof.lean ====
/-
  The kernel cuts a batch of images `x : [256, 384, 384, 3]` into 24 × 24 patches of 16 × 16 pixels, four images per grid
  point, by merging the column and channel axes and exchanging, inside each band of 16 rows, the row with the run of 48
  merged columns; the reference does it on the whole array by splitting rows and columns, exchanging the row in the patch
  with the patch column, and flattening. Both only move entries. Entry `(b, p, q)` of either result is
  `x (b, (p / 24) * 16 + q / 48, (p % 24) * 16 + q % 48 / 3, q % 3)` (`Cert.Patchify.patches`): for the reference by the
  row-major positions of its two reshapes around the exchange, for the kernel by the same arithmetic on one block of four
  images and the blocks tiling the result. No arithmetic on the entries is involved, so the precondition is never used, and
  the idealization rewrote nothing.
-/
import proofs.«137014_j37074157699251_2_alg».proof.Defs
import proofs.«137014_j37074157699251_2_alg».proof.Proof.Gen.Kernel
import proofs.«137014_j37074157699251_2_alg».proof.Proof.Gen.Kernel.Skeleton
import proofs.«137014_j37074157699251_2_alg».proof.Proof.Gen.Kernel.Launch
import proofs.«137014_j37074157699251_2_alg».proof.Proof.Gen.Kernel.Points
import proofs.«137014_j37074157699251_2_alg».proof.Proof.Gen.Kernel.Frame
import proofs.«137014_j37074157699251_2_alg».proof.Proof.Gen.KernelIdeal
import proofs.«137014_j37074157699251_2_alg».proof.Proof.Gen.KernelIdeal.Skeleton
import proofs.«137014_j37074157699251_2_alg».proof.Proof.Gen.KernelIdeal.Launch
import proofs.«137014_j37074157699251_2_alg».proof.Proof.Gen.KernelIdeal.Points
import proofs.«137014_j37074157699251_2_alg».proof.Proof.Gen.KernelIdeal.Frame
import proofs.«137014_j37074157699251_2_alg».proof.Proof.Gen.ReferenceIdeal
import proofs.«137014_j37074157699251_2_alg».proof.Proof.Gen.Pre_finite_inputs
import proofs.«137014_j37074157699251_2_alg».proof.Proof.Gen.KernelIdeal.Value
import proofs.«137014_j37074157699251_2_alg».proof.Proof.Gen.ReferenceIdeal.Run
import proofs.«137014_j37074157699251_2_alg».proof.Proof.PatchIndex
import proofs.«137014_j37074157699251_2_alg».proof.Proof.KernelPatches
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is three host operations; its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the patches of the argument: the kernel block by block, the reference by its
    split, exchange and flattening read at an index. -/
theorem algebraic : Cert.algebraic_KernelIdeal_ReferenceIdeal := by
  intro m ρ m' ρ' _ hagree
  refine ⟨fun c => Cert.Patchify.patches
      (m ((c.tc : Thread Cert.KernelIdeal.nD Cert.KernelIdeal.τ).loc Cert.KernelIdeal.main_arg0) : Cert.Patchify.Img.Idx → EReal),
    Cert.KernelIdeal.Patches.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.Patchify.split_swap_merge _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
